-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_cst_2 : FVec F S_ .f32 := constant S_ .f32 0x00000000#32
  let main_v9 : FVec F S8192 .f32 := (fun x v => Host.reduceAdd x v reducesTo_S8192x8192_S8192_d1 h_S_) main_arg1 main_cst_2
  let main_cst_3 : FVec F S_ .f32 := constant S_ .f32 0x00000000#32
  let main_v10 : FVec F S8192 .f32 := broadcastInDim S8192 ![] bcast_S_S8192 main_cst_3
  let main_v11 : IVec S8192 1 := cmpf .une main_v9 main_v10
  let main_c_4 : IVec S_ 1 := constantI S_ 1 1#1
  let main_v12 : IVec S_ 1 := (fun x v => Host.reduce IntOp.andi x v reducesTo_S8192_S_d0 h_S_) main_v11 main_c_4
  let main_v13 : IVec S_ 1 := andi main_v8 main_v12
  main_v13
-- ==== Kernel.lean ====
abbrev S8192x8192 : Shape := ⟨2, ![8192, 8192]⟩
abbrev S256x8192 : Shape := ⟨2, ![256, 8192]⟩
abbrev S256 : Shape := ⟨1, ![256]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowNormSpec.lean ====
/-
  Row normalisation over the extended reals.

  For a square array `x` the normalised array divides every entry by the sum of its row:
  `normalized x (p, j) = x (p, j) / (∑ k, x (p, k))`, the division being the one of the extended reals used
  throughout (the product with the inverse off zero; by zero, the infinity of the dividend's sign, and `⊥` for
  `0 / 0`).

  The one law needed beside it: for a divisor `s ≠ 0`, multiplying by the reciprocal `1 / s` is dividing by `s`,
  for EVERY extended real dividend — `x · (1 · s⁻¹) = x · s⁻¹`, no finiteness involved. At `s = 0` the law fails
  (`0 · (1 / 0) = 0 · ⊤ = 0` while `0 / 0 = ⊥`), which is why the rows' sums are asked not to vanish.
-/
import Idealize.ShloMosaic.PureOps.Ideal
import Idealize.ShloMosaic.Lib.ValueIdx

noncomputable section

namespace Cert.RowNorm

open Idealize.ShloMosaic Idealize.ShloMosaic.ValueIdx
open scoped BigOperators

/-- The shape of the array: 8192 rows of 8192 entries. -/
abbrev Sq : Shape := ⟨2, ![8192, 8192]⟩

/-- The sum of row `p`. -/
def rowSum (x : Sq.Idx → EReal) (p : Fin 8192) : EReal := ∑ k : Fin 8192, x (ix2 p k)

/-- Every entry divided by the sum of its row. -/
def normalized (x : Sq.Idx → EReal) : Sq.Idx → EReal := fun i => Ideal.div (x i) (rowSum x (i 0))

/-- Multiplying by the reciprocal of a divisor that is not zero is dividing by it, whatever the dividend
    (an infinity included): both sides are `x · s⁻¹`. -/
theorem mul_recip {s : EReal} (hs : s ≠ 0) (x : EReal) : x * Ideal.div 1 s = Ideal.div x s := by
  unfold Ideal.div
  rw [if_neg hs, if_neg hs, one_mul]

end Cert.RowNorm

end
-- ==== Proof.RowSumsNonzero.lean ====
/-
  What the precondition says of the rows' sums.

  The precondition's last conjunct compares each row's sum (the host's sum along the row, from the initial value
  `0`) with `0` for "not equal", and asks that all 8192 comparisons hold. Read at the extended reals: no row of
  the second argument sums to zero.
-/
import proofs.«103667_j41961830482675_2_alg».proof.Pre_finite_inputs
import proofs.«103667_j41961830482675_2_alg».proof.Proof.RowNormSpec
import Idealize.ShloMosaic.Lib.ReduceAll
import Idealize.ShloMosaic.Lib.IdealHost
import Idealize.ShloMosaic.PureOps.Ideal.Laws

noncomputable section

namespace Cert.Pre_finite_inputs.Rows

open Cert.Pre_finite_inputs Cert.Pre_finite_inputs.Facts Idealize.ShloMosaic Idealize.ShloMosaic.ValueIdx Cert.RowNorm
open scoped BigOperators

variable [Facts]

/-- A rank-zero array has one index. -/
instance : Subsingleton S_.Idx := ⟨fun a b => funext fun d => d.elim0⟩

/-- A "not equal" comparison of two extended reals that answers 1 compared different numbers. -/
theorem ne_of_cmp_une {a b : EReal} (h : Ideal.cmp .une a b = 1#1) : a ≠ b := by
  intro e
  subst e
  simp [Ideal.cmp] at h

/-- The host's sum along row `p` from the initial value zero is the row's sum. -/
theorem hostRowSum (x1 : FVec Ideal S8192x8192 .f32) (p : Fin 8192) :
    Host.reduceAdd x1 (constant (F := Ideal) S_ .f32 0x00000000#32) reducesTo_S8192x8192_S8192_d1 h_S_ (ix1 p)
      = rowSum x1 p := by
  rw [hostReduceAdd_apply, Ideal.hostReduceAdd_single reducesTo_S8192x8192_S8192_d1 (by decide), constant_apply,
    Ideal.ofBits_zero_f32, zero_add]
  unfold rowSum
  refine Finset.sum_congr rfl fun k _ => congrArg x1 (funext fun a => Fin.ext ?_)
  match a with
  | ⟨0, _⟩ => rfl
  | ⟨1, _⟩ => rfl

/-- Under the precondition no row of the second argument sums to zero. -/
theorem rowSum_ne_zero (x0 x1 : FVec Ideal S8192x8192 .f32) (h : fn (F := Ideal) x0 x1 = fun _ => 1#1) (p : Fin 8192) :
    rowSum x1 p ≠ 0 := by
  have h1 := congrFun h ix0
  dsimp only [fn] at h1
  have h2 := (IntOp.andi_eq_one.1 h1).2
  have h3 := Host.reduce_andi_all _ _ _ _ _ h2 (ix1 p)
  rw [cmpf_apply, Ideal.cmpf_def, hostRowSum, broadcastInDim_scalar_apply, constant_apply, Ideal.ofBits_zero_f32] at h3
  exact ne_of_cmp_une h3

end Cert.Pre_finite_inputs.Rows

end
-- ==== Proof.ReferenceRows.lean ====
/-
  The reference's result is the row-normalised array.

  The reference sums each row (from the initial value `0`), keeps the sums as a column, spreads the column over
  the row's entries and divides entry by entry: at `(p, j)` that is `x (p, j) / (0 + ∑ k, x (p, k))`.
-/
import proofs.«103667_j41961830482675_2_alg».proof.Proof.Gen.ReferenceIdeal.Read
import proofs.«103667_j41961830482675_2_alg».proof.Proof.RowNormSpec

noncomputable section

namespace Cert.ReferenceIdeal.Rows

open Cert.ReferenceIdeal Cert.ReferenceIdeal.Gen Cert.ReferenceIdeal.Read Idealize.ShloMosaic
open Idealize.ShloMosaic.ValueIdx Cert.RowNorm
open scoped BigOperators

/-- The divide stage of the reference, entry by entry, is `normalized`: the divisor at `(p, j)` is read back through
    the two broadcasts to the sum of row `p`, whose initial value is zero. -/
theorem result_eq (x1 : (⟨S8192x8192, .f32⟩ : BufTy).Contents (Elt Ideal)) :
    val_main_v3 (F := Ideal) x1 = normalized x1 := by
  funext i
  rw [val_main_v3_apply, val_main_v2_apply, val_main_v1_apply, val_main_v0_apply, val_main_cst_apply]
  simp only [Ideal.hostDivf_def, Ideal.ofBits_def, Ideal.ofBits_zero_f32, zero_add]
  unfold normalized rowSum
  refine congrArg (Ideal.div (x1 i)) (Finset.sum_congr rfl fun k _ => congrArg x1 (funext fun a => Fin.ext ?_))
  match a with
  | ⟨0, _⟩ => rfl
  | ⟨1, _⟩ => rfl

end Cert.ReferenceIdeal.Rows

end
-- ==== Proof.KernelBlock.lean ====
/-
  What the kernel's body leaves in a block, entry by entry.

  The body works on a block of 256 whole rows. It sums each row of the block, takes the reciprocal `1 / sum` once
  per row, spreads it over the row and multiplies: at `(q, j)` of the block, `x (q, j) · (1 / ∑ k, x (q, k))`.
-/
import proofs.«103667_j41961830482675_2_alg».proof.Proof.Gen.KernelIdeal.Value
import proofs.«103667_j41961830482675_2_alg».proof.Proof.RowNormSpec
import Idealize.ShloMosaic.PureOps.Ideal.Laws
import Idealize.ShloMosaic.Lib.IdealHost

noncomputable section

namespace Cert.KernelIdeal.Block

open Cert.KernelIdeal Cert.KernelIdeal.Gen Cert.KernelIdeal.Value Idealize.ShloMosaic Idealize.ShloMosaic.ValueIdx
open scoped BigOperators

theorem zero_offsets : (![0, 0] : Fin 2 → Nat) = fun _ => 0 := funext fun a => by fin_cases a <;> rfl

/-- The body's sum along row `q` of its block is the sum of that row's 8192 entries. -/
theorem laneSum (P0 : Vec Ideal S256x8192 .f32) (q : Fin 256) :
    multiReduction (F := Ideal) .add [1] S256 P0 0x00000000#32 reduces_S256x8192_S256 (.inl rfl) rfl (ix1 q)
      = ∑ k : Fin 8192, P0 (ix2 q k) := by
  refine (Ideal.multiReduction_add_single P0 _ reduces_S256x8192_S256 (.inl rfl) rfl (ix1 q)).trans ?_
  refine Finset.sum_congr rfl fun k _ => congrArg P0 (funext fun a => Fin.ext ?_)
  match a with
  | ⟨0, _⟩ => rfl
  | ⟨1, _⟩ => rfl

/-- The block the body leaves, at row `q` and column `j`: the entry times the reciprocal of its row's sum. -/
theorem out_at (P0 : Vec Ideal S256x8192 .f32) (q : Fin 256) (j : Fin 8192) :
    out0_1 (F := Ideal) P0 (ix2 q j) = P0 (ix2 q j) * Ideal.div 1 (∑ k : Fin 8192, P0 (ix2 q k)) := by
  unfold out0_1
  rw [canon1_eq]
  simp only [View.ld_unit_zero (S := S256x8192) zero_offsets]
  show P0 (ix1_0 (ix2 q j)) * Ideal.div (Ideal.ofBits .f32 0x3F800000#32)
      (multiReduction (F := Ideal) .add [1] S256 P0 0x00000000#32 reduces_S256x8192_S256 (.inl rfl) rfl (ix1_1 (ix2 q j))) = _
  have e0 : ix1_0 (ix2 q j) = ix2 q j := funext fun a => Fin.ext (by match a with | ⟨0, _⟩ => rfl | ⟨1, _⟩ => rfl)
  have e1 : ix1_1 (ix2 q j) = ix1 q := funext fun a => Fin.ext (by match a with | ⟨0, _⟩ => rfl)
  rw [e0, e1, laneSum, Ideal.ofBits_one_f32]

end Cert.KernelIdeal.Block

end
-- ==== Proof.KernelRows.lean ====
/-
  From the kernel's blocks to its whole result array.

  The grid has 32 points; point `t` reads rows `256·t … 256·t + 255` of the second argument (all 8192 columns) and
  writes the same rows of the result. A row of the array lies whole inside one block, so the sum the body takes along
  a row of its block is the sum of that row of the array, and — the rows' sums not vanishing — what the body leaves is
  the block of the row-normalised array. The 32 blocks tile the result (row `r` is in block `r / 256`), so the result
  array ends as the row-normalised second argument.
-/
import proofs.«103667_j41961830482675_2_alg».proof.Proof.KernelBlock

noncomputable section

namespace Cert.KernelIdeal.Rows

open Cert.KernelIdeal Cert.KernelIdeal.Gen Cert.KernelIdeal.Value Cert.KernelIdeal.Block
open Idealize.ShloMosaic Idealize.ShloMosaic.TcCoe Idealize.SL.Sem Idealize.ShloMosaic.ValueIdx Cert.RowNorm
open Idealize.ShloMosaic.Pipeline (Dat)
open scoped BigOperators

variable (m : (ℓ : Loc nD τ sig) → Buf (Elt Ideal) ℓ) (ρ : Dev nD → PrngReg)

/-- A block of 256 rows whose rows are rows of the array `X` — row `y 0` of the block is row `i 0` of `X`, and the
    entry looked at sits in the same column — is left by the body at the row-normalised `X`, when no row of `X`
    sums to zero. -/
theorem block_eq (X : S8192x8192.Idx → EReal) (hrow : ∀ p, rowSum X p ≠ 0)
    (P0 : Vec Ideal S256x8192 .f32) (y : S256x8192.Idx) (i : S8192x8192.Idx)
    (hcol : (i 1).val = (y 1).val)
    (hP : ∀ k : Fin 8192, P0 (ix2 (y 0) k) = X (ix2 (i 0) k)) :
    out0_1 (F := Ideal) P0 y = normalized X i := by
  obtain ⟨q, j, rfl⟩ : ∃ (q : Fin 256) (j : Fin 8192), y = ix2 q j := ⟨y 0, y 1, eq_ix2 y⟩
  obtain ⟨p, r, rfl⟩ : ∃ (p : Fin 8192) (r : Fin 8192), i = ix2 p r := ⟨i 0, i 1, eq_ix2 i⟩
  have hr : r = j := Fin.ext hcol
  subst hr
  have hP' : ∀ k : Fin 8192, P0 (ix2 q k) = X (ix2 p k) := hP
  rw [out_at, hP', Finset.sum_congr rfl (fun k _ => hP' k)]
  show X (ix2 p r) * Ideal.div 1 (rowSum X p) = Ideal.div (X (ix2 p r)) (rowSum X p)
  exact mul_recip (hrow p) _

/-- The index maps over the 32 points: both windows are at block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the row-normalised second argument. -/
theorem flushed_eq (c : Dev nD) (hrow : ∀ p, rowSum (V m c main_arg1) p ≠ 0) (t : Fin cfg0.N) :
    (dats m 0 c).flushed 1 t = ((cfg0.win 1).blk t).view.read (Elt Ideal) (normalized (V m c main_arg1)) := by
  rw [flushed1]
  obtain ⟨e0, e1, e2, e3⟩ := idx_facts t
  funext y
  show out0_1 (F := Ideal) (iblk m c 0 t) y = normalized (V m c main_arg1) (((cfg0.win 1).blk t).view.emb y)
  refine block_eq (V m c main_arg1) hrow (iblk m c 0 t) y (((cfg0.win 1).blk t).view.emb y) ?_ ?_
  · show win0_1.index t (1 : Fin 2) * 8192 + 1 * (y 1).val = (y 1).val
    omega
  · intro k
    show V m c main_arg1 (((cfg0.win 0).blk t).view.emb (ix2 (y 0) k))
      = V m c main_arg1 (ix2 ((((cfg0.win 1).blk t).view.emb y) 0) k)
    refine congrArg (V m c main_arg1) (funext fun a => Fin.ext ?_)
    match a with
    | ⟨0, _⟩ =>
      show win0_0.index t (0 : Fin 2) * 256 + 1 * (y 0).val = win0_1.index t (0 : Fin 2) * 256 + 1 * (y 0).val
      omega
    | ⟨1, _⟩ =>
      show win0_0.index t (1 : Fin 2) * 8192 + 1 * k.val = k.val
      omega

/-- An index of the result is in point `t`'s block iff each coordinate is in the block's range on its axis. -/
theorem mem_blk (t : Fin cfg0.N) (i : S8192x8192.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v0).slice (win0_1.rect t)).set ↔ _
  rw [View.set_slice_whole, Rect.mem_set_unit]
  exact Iff.rfl

/-- Every index of the result is in some point's block: row `r` is in block `r / 256`. -/
theorem cover (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 32 := N_0
  have ht : (i 0).val / 256 < cfg0.N := by rw [hN]; omega
  obtain ⟨e0, e1, e2, e3⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e2]
    show (i 0).val / 256 * 256 ≤ (i 0).val ∧ (i 0).val < (i 0).val / 256 * 256 + 256
    omega
  | ⟨1, _⟩ =>
    show win0_1.index ⟨(i 0).val / 256, ht⟩ (1 : Fin 2) * 8192 ≤ (i 1).val
      ∧ (i 1).val < win0_1.index ⟨(i 0).val / 256, ht⟩ (1 : Fin 2) * 8192 + 8192
    rw [e3]
    omega

/-- The result array after the run is the row-normalised second argument, when none of its rows sums to zero. -/
theorem final (c : Dev nD) (hrow : ∀ p, rowSum (m ((c : Thread nD τ).loc main_arg1)) p ≠ 0) :
    (dats m 0 c).arrAt 1 cfg0.N = normalized (m ((c : Thread nD τ).loc main_arg1)) :=
  (dats m 0 c).arrAt_eq_of_cover 1 (normalized (V m c main_arg1)) (fun t _ => flushed_eq m c hrow t) cover

/-- The kernel's run with its result named: every execution ends with the result array at the row-normalised second
    argument and both arguments as they were. -/
theorem run (hrow : ∀ (c : Dev nD) p, rowSum (m ((c : Thread nD τ).loc main_arg1)) p ≠ 0) :
    θ_run defs (onTc (τ := τ) (main (F := Ideal))) ⟨m, fun _ => 0, ρ⟩ fun r => ∀ c : Dev nD,
      r.2.mem ((c : Thread nD τ).loc main_v0) = normalized (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hrow c)), (h c).2⟩) (run_blocks m ρ)

end Cert.KernelIdeal.Rows

end
-- ==== Proof.lean ====
/-
  Row normalisation: a kernel that multiplies each row by the reciprocal of its sum, against a reference that divides
  each row by its sum.

  Both programs return the first argument untouched and, for the second argument `x` (8192 × 8192), an array `y`.
  The kernel walks 32 blocks of 256 whole rows; on a block it sums every row, takes `1 / sum` once per row and
  multiplies the row by it: `y (p, j) = x (p, j) · (1 / ∑ k, x (p, k))`. The reference sums the rows of the whole
  array and divides: `y (p, j) = x (p, j) / ∑ k, x (p, k)`.

  Over the extended reals, for a sum `s ≠ 0` both are `x (p, j) · s⁻¹` (`1 · s⁻¹ = s⁻¹`), for every dividend, an
  infinity included; nothing but `s ≠ 0` is used. At `s = 0` the two differ on a zero entry (`0 · (1 / 0) = 0 · ⊤ = 0`
  against `0 / 0 = ⊥`), and the reference's own quotient is an infinity or undefined there, so the precondition asks
  that no row of `x` sums to zero; its finiteness conjuncts are not needed by the argument.

  The modules: RowNormSpec (the row-normalised array and the law `x · (1 / s) = x / s` for `s ≠ 0`), RowSumsNonzero
  (the precondition read back: no row sums to zero), ReferenceRows (the reference's result is the row-normalised array),
  KernelBlock (what the body leaves in a block, entry by entry), KernelRows (the 32 blocks tile the result, which is
  the row-normalised array). Here: the three frames and the pairing of the two runs.
-/
import proofs.«103667_j41961830482675_2_alg».proof.Defs
import proofs.«103667_j41961830482675_2_alg».proof.Proof.Gen.Kernel
import proofs.«103667_j41961830482675_2_alg».proof.Proof.Gen.Kernel.Skeleton
import proofs.«103667_j41961830482675_2_alg».proof.Proof.Gen.Kernel.Launch
import proofs.«103667_j41961830482675_2_alg».proof.Proof.Gen.Kernel.Points
import proofs.«103667_j41961830482675_2_alg».proof.Proof.Gen.Kernel.Frame
import proofs.«103667_j41961830482675_2_alg».proof.Proof.Gen.KernelIdeal
import proofs.«103667_j41961830482675_2_alg».proof.Proof.Gen.KernelIdeal.Skeleton
import proofs.«103667_j41961830482675_2_alg».proof.Proof.Gen.KernelIdeal.Launch
import proofs.«103667_j41961830482675_2_alg».proof.Proof.Gen.KernelIdeal.Points
import proofs.«103667_j41961830482675_2_alg».proof.Proof.Gen.KernelIdeal.Frame
import proofs.«103667_j41961830482675_2_alg».proof.Proof.Gen.ReferenceIdeal
import proofs.«103667_j41961830482675_2_alg».proof.Proof.Gen.Pre_finite_inputs
import proofs.«103667_j41961830482675_2_alg».proof.Proof.Gen.KernelIdeal.Value
import proofs.«103667_j41961830482675_2_alg».proof.Proof.Gen.ReferenceIdeal.Run
import proofs.«103667_j41961830482675_2_alg».proof.Proof.Gen.ReferenceIdeal.Read
import proofs.«103667_j41961830482675_2_alg».proof.Proof.RowSumsNonzero
import proofs.«103667_j41961830482675_2_alg».proof.Proof.ReferenceRows
import proofs.«103667_j41961830482675_2_alg».proof.Proof.KernelRows
import Idealize.ShloMosaic.Adequacy
import Idealize.ShloMosaic.Init

noncomputable section

namespace Cert.Proof

open Idealize.ShloMosaic Idealize.ShloMosaic.TcCoe Idealize.SL.Sem Cert.RowNorm

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- From memories agreeing on the arguments both programs end with the first argument and the row-normalised second
    argument: the kernel because no row sums to zero (the precondition) and `x · (1 / s) = x / s` for `s ≠ 0`, the
    reference by its own text. -/
theorem algebraic : Cert.algebraic_KernelIdeal_ReferenceIdeal := by
  intro m ρ m' ρ' hpre hagree
  have hrow : ∀ (c : Dev Cert.KernelIdeal.nD) p,
      rowSum (m ((c.tc : Thread Cert.KernelIdeal.nD Cert.KernelIdeal.τ).loc Cert.KernelIdeal.main_arg1)) p ≠ 0 :=
    fun c p => Cert.Pre_finite_inputs.Rows.rowSum_ne_zero _ _ (hpre c) p
  refine ⟨fun c => m ((c.tc : Thread Cert.KernelIdeal.nD Cert.KernelIdeal.τ).loc Cert.KernelIdeal.main_arg0),
    fun c => normalized (m ((c.tc : Thread Cert.KernelIdeal.nD Cert.KernelIdeal.τ).loc Cert.KernelIdeal.main_arg1)), ?_, ?_⟩
  · exact (θ_run Cert.KernelIdeal.defs _ _).mono (fun r h c => ⟨(h c).2.1, (h c).1, (h c).2.1, (h c).2.2⟩)
      (Cert.KernelIdeal.Rows.run m ρ hrow)
  · refine (θ_run Cert.ReferenceIdeal.defs _ _).mono
      (fun r h c => ⟨(h c).1.trans (hagree c).1, ?_, (h c).2.2.1, (h c).2.2.2⟩)
      (Cert.ReferenceIdeal.Value.run (F := Ideal) m' ρ')
    rw [(h c).2.1, Cert.ReferenceIdeal.Read.val_main_v3_eq, Cert.ReferenceIdeal.Rows.result_eq, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
